-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S14336x4096 : Shape := ⟨2, ![14336, 4096]⟩
abbrev S4096 : Shape := ⟨1, ![4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32x4096 .f32) (main_arg1 : IVec S14336x4096 32) (main_arg2 : FVec F S4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S32x4096 : Shape := ⟨2, ![32, 4096]⟩
abbrev S14336x4096 : Shape := ⟨2, ![14336, 4096]⟩
abbrev S4096 : Shape := ⟨1, ![4096]⟩
abbrev S1x4096 : Shape := ⟨2, ![1, 4096]⟩
abbrev S32x14336 : Shape := ⟨2, ![32, 14336]⟩
abbrev S512x4096 : Shape := ⟨2, ![512, 4096]⟩
abbrev S32x512 : Shape := ⟨2, ![32, 512]⟩

abbrev nBuf : Space → Nat
  | .hbm => 5
  | .vmem => 6
  | .smem => 0
  | _ => 0

abbrev bufTy : (tb : Table) → Fin (tcTables nBuf tb) → BufTy
  | .hbm, ⟨0, _⟩ => ⟨S32x4096, .f32⟩
  | .hbm, ⟨1, _⟩ => ⟨S14336x4096, .i32⟩
  | .hbm, ⟨2, _⟩ => ⟨S4096, .f32⟩
  | .hbm, ⟨3, _⟩ => ⟨S1x4096, .f32⟩
  | .hbm, ⟨4, _⟩ => ⟨S32x14336, .f32⟩
  | .local _ .vmem, ⟨0, _⟩ => ⟨S32x4096, .f32⟩
  | .local _ .vmem, ⟨1, _⟩ => ⟨S512x4096, .i32⟩
  | .local _ .vmem, ⟨2, _⟩ => ⟨S512x4096, .i32⟩
  | .local _ .vmem, ⟨3, _⟩ => ⟨S1x4096, .f32⟩
  | .local _ .vmem, ⟨4, _⟩ => ⟨S32x512, .f32⟩
  | .local _ .vmem, ⟨5, _⟩ => ⟨S32x512, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  inb_S32x512_S32x512_0_0 : ∀ a, (![0, 0] : Fin 2 → Nat) a + S32x512.size a ≤ S32x512.size a
  h_S32x512 : 0 < S32x512.numel
  dot_S32x4096_S512x4096_S32x512_1_1_0_0_n_n_wf : DotDims.WF S32x4096 S512x4096 S32x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .i32 = 32 ∨ (Rect.block (s := S14336x4096) S512x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x14336.size a
  hwx0_3 : ∀ i : grid0.Coords, EltTy.bits .f32 = 32 ∨ (Rect.block (s := S32x14336) S32x512.size (cc0_transform_3 i) (hinb0_3 i)).WholeWords (EltTy.packing .f32)

variable [Facts₀]

def dot_S32x4096_S512x4096_S32x512_1_1_0_0_n_n : DotDims S32x4096 S512x4096 S32x512 where
  lhsContracting := [1]
  rhsContracting := [1]
  lhsNonContracting := [0]
  rhsNonContracting := [0]
  lhsBatch := []
  rhsBatch := []
  wf := dot_S32x4096_S512x4096_S32x512_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096 : Shape := ⟨2, ![32, 4096]⟩
abbrev S14336x4096 : Shape := ⟨2, ![14336, 4096]⟩
abbrev S4096 : Shape := ⟨1, ![4096]⟩
abbrev S1x4096 : Shape := ⟨2, ![1, 4096]⟩
abbrev S32x14336 : Shape := ⟨2, ![32, 14336]⟩

abbrev nBuf : Space → Nat
  | .hbm => 8
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S14336x4096, .i32⟩
  | .hbm, ⟨2, _⟩ => ⟨S4096, .f32⟩
  | .hbm, ⟨3, _⟩ => ⟨S1x4096, .f32⟩
  | .hbm, ⟨4, _⟩ => ⟨S32x4096, .f32⟩
  | .hbm, ⟨5, _⟩ => ⟨S32x4096, .f32⟩
  | .hbm, ⟨6, _⟩ => ⟨S14336x4096, .f32⟩
  | .hbm, ⟨7, _⟩ => ⟨S32x14336, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  dot_S32x4096_S14336x4096_S32x14336_1_1_0_0_n_n_wf : DotDims.WF S32x4096 S14336x4096 S32x14336 [1] [1] [0] [0] [] []

variable [Facts₀]

def dot_S32x4096_S14336x4096_S32x14336_1_1_0_0_n_n : DotDims S32x4096 S14336x4096 S32x14336 where
  lhsContracting := [1]
  rhsContracting := [1]
  lhsNonContracting := [0]
  rhsNonContracting := [0]
  lhsBatch := []
  rhsBatch := []
  wf := dot_S32x4096_S14336x4096_S32x14336_1_1_0_0_n_n_wf

class Facts : Prop extends Facts₀ where

variable [Facts]
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.BlockProduct.lean ====
/-
  One block of the kernel's output, entry by entry.

  At a grid point the kernel holds the whole activation matrix `x` (32 by 4096), a block of 512 rows of the integer
  weight table `w` and the scale as a one-row matrix `s` (1 by 4096). It reads the integers as reals, copies the scale
  row down the 512 rows, multiplies entry by entry, and contracts the activations with the rescaled block over the
  shared second axis into a zero accumulator. The two narrowing format changes on the way are the identity on
  extended reals. So the block's entry at row `q` and column `o` is Σ_c x (q, c) · (w (o, c) · s (0, c)).
-/
import proofs.«146177_j50611894616843_1_alg».proof.Proof.Gen.KernelIdeal.Skeleton
import proofs.«146177_j50611894616843_1_alg».proof.Proof.LibRowsTimesRows
import proofs.«146177_j50611894616843_1_alg».proof.Proof.LibRowLayout
import Idealize.ShloMosaic.Lib.Pipeline.Value
import Idealize.ShloMosaic.Lib.ValueIdx

noncomputable section

open scoped BigOperators

namespace Cert.KernelIdeal.BlockValue

open Cert.KernelIdeal Cert.KernelIdeal.Gen Idealize.ShloMosaic Idealize.ShloMosaic.ValueIdx

/-- The rescaled weight block at `(o, c)`: the integer as a real times the scale of feature `c`. -/
theorem scaledBlock_apply (x1 : Vec Ideal S512x4096 .i32) (x2 : Vec Ideal S1x4096 .f32) (o : Fin 512) (c : Fin 4096) :
    (truncf .bf16 (mulf (sitofp .f32 x1 : FVec Ideal S512x4096 .f32)
        (broadcastTo S512x4096 (shapeCast S1x4096 x2 shapeCasts_S1x4096_S1x4096) broadcasts_S1x4096_S512x4096))
      bitsLt_bf16_f32 : FVec Ideal S512x4096 .bf16) (ix2 o c)
      = FloatOps.sitofp (F := Ideal) .f32 (x1 (ix2 o c)) * x2 (ix2 (0 : Fin 1) c) := by
  rw [truncf_apply, mulf_apply, sitofp_apply, shapeCast_self]
  exact congrArg (FloatOps.sitofp (F := Ideal) .f32 (x1 (ix2 o c)) * ·)
    (Idealize.ShloMosaic.RowLayout.rowBroadcast_apply x2 broadcasts_S1x4096_S512x4096 o c)

/-- The block the body stores, at `(q, o)`: the activation row `q` against the rescaled weight row `o`. -/
theorem payload_apply (x0 : Vec Ideal S32x4096 .f32) (x1 : Vec Ideal S512x4096 .i32) (x2 : Vec Ideal S1x4096 .f32)
    (q : Fin 32) (o : Fin 512) :
    k0_pay1 (F := Ideal) x1 x2 x0 (ix2 q o)
      = ∑ c : Fin 4096, x0 (ix2 q c) * (FloatOps.sitofp (F := Ideal) .f32 (x1 (ix2 o c)) * x2 (ix2 (0 : Fin 1) c)) := by
  unfold k0_pay1
  refine (Cert.RowsTimesRows.rowsMatmul_zero_apply dot_S32x4096_S512x4096_S32x512_1_1_0_0_n_n_wf none _ _ q o).trans ?_
  refine Finset.sum_congr rfl fun c _ => ?_
  rw [scaledBlock_apply, truncf_apply]

end Cert.KernelIdeal.BlockValue

end
-- ==== Proof.ScaledProduct.lean ====
/-
  A linear layer whose weight is stored as integers with one scale per input feature.

  For activations `x` (32 rows of 4096 features), an integer weight table `w` (14336 output features by 4096 input
  features) and a scale `s` per input feature, the layer's output at row `t` and output feature `n` is

      out (t, n) = Σ_c  x (t, c) · s (c) · w (n, c),

  the integer read as the real number it denotes. The scale can sit on either factor of each product: a program that
  first rescales the weight row, `x (t, c) · (w (n, c) · s (c))`, and one that first rescales the activation,
  `(x (t, c) · s (c)) · w (n, c)`, compute the same term, because multiplication of extended reals is commutative and
  associative — with no condition on the entries, infinite ones included. Every sum here is over the same index set
  in both programs, so nothing has to be said about the order of addition.
-/
import Idealize.ShloMosaic.PureOps.Ideal
import Idealize.ShloMosaic.Lib.ValueIdx

noncomputable section

open scoped BigOperators

namespace Cert.ScaledProduct

open Idealize.ShloMosaic Idealize.ShloMosaic.ValueIdx

/-- The integer weight at `(n, c)` as an extended real. -/
abbrev weightAt (w : (⟨2, ![14336, 4096]⟩ : Shape).Idx → BitVec 32) (n : Fin 14336) (c : Fin 4096) : EReal :=
  FloatOps.sitofp (F := Ideal) .f32 (w (ix2 n c))

/-- The layer's output at row `t` and output feature `n`: the activation row, rescaled feature by feature, against
    the weight row. -/
def outAt (x : (⟨2, ![32, 4096]⟩ : Shape).Idx → EReal) (w : (⟨2, ![14336, 4096]⟩ : Shape).Idx → BitVec 32)
    (s : (⟨1, ![4096]⟩ : Shape).Idx → EReal) (t : Fin 32) (n : Fin 14336) : EReal :=
  ∑ c : Fin 4096, x (ix2 t c) * s (ix1 c) * weightAt w n c

/-- The layer's output as an array: at each index, the entry at its two coordinates. -/
def out (x : (⟨2, ![32, 4096]⟩ : Shape).Idx → EReal) (w : (⟨2, ![14336, 4096]⟩ : Shape).Idx → BitVec 32)
    (s : (⟨1, ![4096]⟩ : Shape).Idx → EReal) : (⟨2, ![32, 14336]⟩ : Shape).Idx → EReal :=
  fun j => outAt x w s (j 0) (j 1)

/-- The scale moves from the weight to the activation: `a · (b · e) = (a · e) · b`. -/
theorem scale_moves (a b e : EReal) : a * (b * e) = a * e * b := by
  rw [mul_comm b e, mul_assoc]

/-- A sum of products with the scale on the weight is the same sum with the scale on the activation. -/
theorem sum_scale_moves {ι : Type} [Fintype ι] (a b e : ι → EReal) :
    ∑ c, a c * (b c * e c) = ∑ c, a c * e c * b c :=
  Finset.sum_congr rfl fun c _ => scale_moves (a c) (b c) (e c)

end Cert.ScaledProduct

end
-- ==== Proof.KernelArray.lean ====
/-
  The kernel's output array after its run.

  The kernel visits 28 grid points. At point `p` it holds the whole activation matrix, rows 512·p … 512·p + 511 of the
  integer weight table, and the scale as a one-row matrix (the scale vector, given one leading unit axis by the host
  before the kernel starts); it writes columns 512·p … 512·p + 511 of the output. Entry `(q, o)` of the block written
  at point `p` is Σ_c x (q, c) · (w (512·p + o, c) · s (c)), which is the layer's output at `(q, 512·p + o)` once the
  scale is moved from the weight onto the activation. The 28 blocks tile the 14336 output columns, so the output array
  ends holding the layer's output everywhere.
-/
import proofs.«146177_j50611894616843_1_alg».proof.Proof.Gen.KernelIdeal.Value
import proofs.«146177_j50611894616843_1_alg».proof.Proof.BlockProduct
import proofs.«146177_j50611894616843_1_alg».proof.Proof.ScaledProduct
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.ScaledProduct (out outAt)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-! ## One entry of a block, from the blocks' entries -/

/-- If the activation block's row `q` is row `q` of `X`, the weight block's row `o` is row `n` of `W`, and the scale row is
    `S`, then the body's block at `(q, o)` is the layer's output at `(q, n)`. -/
theorem block_entry (x0 : Vec Ideal S32x4096 .f32) (x1 : Vec Ideal S512x4096 .i32) (x2 : Vec Ideal S1x4096 .f32)
    (X : S32x4096.Idx → EReal) (W : S14336x4096.Idx → BitVec 32) (S : S4096.Idx → EReal)
    (q : Fin 32) (o : Fin 512) (n : Fin 14336)
    (h0 : ∀ c : Fin 4096, x0 (ix2 q c) = X (ix2 q c))
    (h1 : ∀ c : Fin 4096, x1 (ix2 o c) = W (ix2 n c))
    (h2 : ∀ c : Fin 4096, x2 (ix2 (0 : Fin 1) c) = S (ix1 c)) :
    k0_pay1 (F := Ideal) x1 x2 x0 (ix2 q o) = outAt X W S q n := by
  rw [BlockValue.payload_apply]
  unfold outAt
  refine Finset.sum_congr rfl fun c _ => ?_
  rw [h0, h1, h2]
  exact Cert.ScaledProduct.scale_moves _ _ _

/-! ## The scale row the kernel is launched with -/

/-- When the kernel starts, the one-row matrix it stages is the scale vector with a leading unit axis. -/
theorem scale_row (c : Dev nD) :
    (V m c main_v0 : S1x4096.Idx → EReal)
      = shapeCast S1x4096 (m ((c : Thread nD τ).loc main_arg2)) shapeCasts_S4096_S1x4096 := by
  dsimp only [Gen.V, Gen.hostOps0]
  after_results
  rfl

/-- Its entry `(0, k)` is the scale of feature `k`. -/
theorem scale_row_apply (c : Dev nD) (k : Fin 4096) :
    (V m c main_v0 : S1x4096.Idx → EReal) (ix2 (0 : Fin 1) k) = m ((c : Thread nD τ).loc main_arg2) (ix1 k) := by
  rw [scale_row]
  refine (shapeCast_addUnit_apply ![4096] _ shapeCasts_S4096_S1x4096 (ix2 (0 : Fin 1) k)).trans (congrArg _ (funext fun a => ?_))
  match a with
  | ⟨0, _⟩ => rfl

/-! ## Where each point's blocks sit -/

/-- The index maps over the 28 points: the activations and the scale row are always block (0, 0); the weight block's row
    index is the output block's column index, which is below 28. -/
theorem block_indices : ∀ t : Fin cfg0.N,
    win0_0.index t (0 : Fin 2) = 0 ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) ≤ 27 :=
  (by decide +kernel : ∀ t : Fin grid0.N, _)

/-- Every one of the 28 column blocks of the output is some point's. -/
theorem block_onto : ∀ p : Fin 28, ∃ t : Fin cfg0.N, win0_3.index t = ![0, p.val] :=
  (by decide +kernel : ∀ p : Fin 28, ∃ t : Fin grid0.N, win0_3.index t = ![0, p.val])

/-! ## What a point writes back -/

/-- Point `t` writes back block `t` of the layer's output of the three argument arrays. -/
theorem flushed_eq (c : Dev nD) (t : Fin cfg0.N) :
    (dats m 0 c).flushed 3 t = ((cfg0.win 3).blk t).view.read (Elt Ideal)
      (out (m ((c : Thread nD τ).loc main_arg0)) (m ((c : Thread nD τ).loc main_arg1)) (m ((c : Thread nD τ).loc main_arg2))) := by
  rw [Value.flushed3]
  unfold out0_3
  rw [View.canon_unit_zero origin]
  simp only [View.ld_unit_zero (S := S512x4096) origin, View.ld_unit_zero (S := S1x4096) origin,
    View.ld_unit_zero (S := S32x4096) origin]
  obtain ⟨e00, e01, e10, e11, e20, e21, e30, e31⟩ := block_indices t
  funext y
  obtain ⟨q, o, rfl⟩ : ∃ (q : Fin 32) (o : Fin 512), y = ix2 q o := ⟨y 0, y 1, eq_ix2 y⟩
  have hn : win0_3.index t (1 : Fin 2) * 512 + o.val < 14336 := by have := o.isLt; omega
  show k0_pay1 (F := Ideal) (iblk m c 1 t) (iblk m c 2 t) (iblk m c 0 t) (ix2 q o)
      = outAt (m ((c : Thread nD τ).loc main_arg0)) (m ((c : Thread nD τ).loc main_arg1)) (m ((c : Thread nD τ).loc main_arg2))
          ((((cfg0.win 3).blk t).view.emb (ix2 q o)) 0) ((((cfg0.win 3).blk t).view.emb (ix2 q o)) 1)
  have r0 : (((cfg0.win 3).blk t).view.emb (ix2 q o)) 0 = q := Fin.ext (by
    show win0_3.index t (0 : Fin 2) * 32 + 1 * q.val = q.val; omega)
  have r1 : (((cfg0.win 3).blk t).view.emb (ix2 q o)) 1 = (⟨win0_3.index t (1 : Fin 2) * 512 + o.val, hn⟩ : Fin 14336) := Fin.ext (by
    show win0_3.index t (1 : Fin 2) * 512 + 1 * o.val = win0_3.index t (1 : Fin 2) * 512 + o.val; omega)
  rw [r0, r1]
  refine block_entry (iblk m c 0 t) (iblk m c 1 t) (iblk m c 2 t) _ _ _ q o ⟨win0_3.index t (1 : Fin 2) * 512 + o.val, hn⟩ ?_ ?_ ?_
  · intro k
    show V m c main_arg0 (((cfg0.win 0).blk t).view.emb (ix2 q k)) = _
    rw [V_main_arg0]
    refine congrArg _ (funext fun a => Fin.ext ?_)
    match a with
    | ⟨0, _⟩ => show win0_0.index t (0 : Fin 2) * 32 + 1 * q.val = q.val; omega
    | ⟨1, _⟩ => show win0_0.index t (1 : Fin 2) * 4096 + 1 * k.val = k.val; omega
  · intro k
    show V m c main_arg1 (((cfg0.win 1).blk t).view.emb (ix2 o k)) = _
    rw [V_main_arg1]
    refine congrArg _ (funext fun a => Fin.ext ?_)
    match a with
    | ⟨0, _⟩ => show win0_1.index t (0 : Fin 2) * 512 + 1 * o.val = win0_3.index t (1 : Fin 2) * 512 + o.val; omega
    | ⟨1, _⟩ => show win0_1.index t (1 : Fin 2) * 4096 + 1 * k.val = k.val; omega
  · intro k
    show V m c main_v0 (((cfg0.win 2).blk t).view.emb (ix2 (0 : Fin 1) k)) = _
    rw [← scale_row_apply m c k]
    refine congrArg _ (funext fun a => Fin.ext ?_)
    match a with
    | ⟨0, _⟩ => show win0_2.index t (0 : Fin 2) * 1 + 1 * 0 = 0; omega
    | ⟨1, _⟩ => show win0_2.index t (1 : Fin 2) * 4096 + 1 * k.val = k.val; omega

/-! ## The blocks tile the output -/

/-- An index of the output is in point `t`'s block iff each coordinate is in the block's range on its axis. -/
theorem mem_block (t : Fin cfg0.N) (i : S32x14336.Idx) :
    i ∈ ((cfg0.win 3).blk t).view.set ↔ ∀ a : Fin 2, win0_3.index t a * S32x512.size a ≤ (i a).val ∧ (i a).val < win0_3.index t a * S32x512.size a + S32x512.size a := by
  show i ∈ ((View.whole main_v1).slice (win0_3.rect t)).set ↔ _
  rw [View.set_slice_whole, Rect.mem_set_unit]
  exact Iff.rfl

/-- Column `n` of the output lies in the block of the point whose column index is `n / 512`. -/
theorem covered (i : S32x14336.Idx) :
    ∃ t : Fin cfg0.N, (cfg0.win 3).flush t = true ∧ i ∈ ((cfg0.win 3).blk t).view.set := by
  have hi0 : (i 0).val < 32 := (i 0).isLt
  have hi1 : (i 1).val < 14336 := (i 1).isLt
  obtain ⟨t, ht⟩ := block_onto ⟨(i 1).val / 512, by omega⟩
  have q0 : win0_3.index t (0 : Fin 2) = 0 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 512 ≤ (i 1).val ∧ (i 1).val < win0_3.index t (1 : Fin 2) * 512 + 512; omega

/-- After the last point the output array is the layer's output of the argument arrays. -/
theorem final (c : Dev nD) :
    (dats m 0 c).arrAt 3 cfg0.N
      = out (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: it terminates with the output array at the layer's output and the arguments unchanged. -/
theorem run : θ_run defs (onTc (τ := τ) (main (F := Ideal))) ⟨m, fun _ => 0, ρ⟩ fun r => ∀ c : Dev nD,
      r.2.mem ((c : Thread nD τ).loc main_v1)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.ReferenceArray.lean ====
/-
  The reference program's result, entry by entry.

  The reference lays the scale vector out as a one-row matrix, copies it down the 32 activation rows, multiplies the
  activations by it entry by entry, reads the integer weight table as reals, and contracts the rescaled activations
  with the weight table over the shared feature axis. Read at row `t` and output feature `n` this is
  Σ_c (x (t, c) · s (c)) · w (n, c): the layer's output as specified.
-/
import proofs.«146177_j50611894616843_1_alg».proof.Proof.Gen.ReferenceIdeal.Read
import proofs.«146177_j50611894616843_1_alg».proof.Proof.ScaledProduct

noncomputable section

open scoped BigOperators

namespace Cert.ReferenceIdeal.RefValue

open Cert.ReferenceIdeal Cert.ReferenceIdeal.Read Idealize.ShloMosaic Idealize.ShloMosaic.ValueIdx

/-- The left operand of the contraction at output `(t, n)` and feature `k` is the activation at `(t, k)`. -/
theorem lidx_eq (t : Fin 32) (n : Fin 14336) (k : Fin 4096) : lidx_main_v4 (ix2 t n) k = ix2 t k :=
  funext fun a => Fin.ext (by match a with | ⟨0, _⟩ => rfl | ⟨1, _⟩ => rfl)

/-- The right operand there is the weight at `(n, k)`. -/
theorem ridx_eq (t : Fin 32) (n : Fin 14336) (k : Fin 4096) : ridx_main_v4 (ix2 t n) k = ix2 n k :=
  funext fun a => Fin.ext (by match a with | ⟨0, _⟩ => rfl | ⟨1, _⟩ => rfl)

/-- The scale copied down the rows, read at `(t, k)`, is the scale vector at `k`. -/
theorem scale_apply (x2 : (⟨S4096, .f32⟩ : BufTy).Contents (Elt Ideal)) (t : Fin 32) (k : Fin 4096) :
    val_main_v1 (F := Ideal) x2 (ix2 t k) = x2 (ix1 k) := by
  rw [val_main_v1_apply, val_main_v0_apply]
  exact congrArg x2 (funext fun a => Fin.ext (by match a with | ⟨0, _⟩ => rfl))

/-- The reference's result is the layer's output. -/
theorem result_eq (x0 : (⟨S32x4096, .f32⟩ : BufTy).Contents (Elt Ideal))
    (x1 : (⟨S14336x4096, .i32⟩ : BufTy).Contents (Elt Ideal)) (x2 : (⟨S4096, .f32⟩ : BufTy).Contents (Elt Ideal)) :
    val_main_v4 (F := Ideal) x0 x1 x2 = Cert.ScaledProduct.out x0 x1 x2 := by
  funext j
  obtain ⟨t, n, rfl⟩ : ∃ (t : Fin 32) (n : Fin 14336), j = ix2 t n := ⟨j 0, j 1, eq_ix2 j⟩
  rw [val_main_v4_apply]
  show _ = Cert.ScaledProduct.outAt x0 x1 x2 t n
  unfold Cert.ScaledProduct.outAt
  refine Finset.sum_congr rfl fun k _ => ?_
  rw [lidx_eq, ridx_eq, val_main_v2_apply, scale_apply, val_main_v3_apply]
  rfl

end Cert.ReferenceIdeal.RefValue

end
-- ==== Proof.lean ====
/-
  A linear layer with an integer weight table and one scale per input feature, as a tiled kernel and as a reference.

  Both programs compute, for activations `x`, integer weights `w` and scales `s`,
  out (t, n) = Σ_c x (t, c) · s (c) · w (n, c) over the extended reals. The kernel rescales the weight rows,
  x (t, c) · (w (n, c) · s (c)), 512 output columns per grid point; the reference rescales the activations,
  (x (t, c) · s (c)) · w (n, c), in one contraction. The two terms agree by commutativity and associativity of the
  product alone, so the precondition that the inputs are finite is not used. The three programs' runs terminate with
  their arguments unchanged; the idealized kernel is the kernel's own text read over the extended reals, with nothing
  rewritten.
-/
import proofs.«146177_j50611894616843_1_alg».proof.Defs
import proofs.«146177_j50611894616843_1_alg».proof.Proof.Gen.Kernel
import proofs.«146177_j50611894616843_1_alg».proof.Proof.Gen.Kernel.Skeleton
import proofs.«146177_j50611894616843_1_alg».proof.Proof.Gen.Kernel.Launch
import proofs.«146177_j50611894616843_1_alg».proof.Proof.Gen.Kernel.Points
import proofs.«146177_j50611894616843_1_alg».proof.Proof.Gen.Kernel.Frame
import proofs.«146177_j50611894616843_1_alg».proof.Proof.Gen.KernelIdeal
import proofs.«146177_j50611894616843_1_alg».proof.Proof.Gen.KernelIdeal.Skeleton
import proofs.«146177_j50611894616843_1_alg».proof.Proof.Gen.KernelIdeal.Launch
import proofs.«146177_j50611894616843_1_alg».proof.Proof.Gen.KernelIdeal.Points
import proofs.«146177_j50611894616843_1_alg».proof.Proof.Gen.KernelIdeal.Frame
import proofs.«146177_j50611894616843_1_alg».proof.Proof.Gen.KernelIdeal.Value
import proofs.«146177_j50611894616843_1_alg».proof.Proof.Gen.ReferenceIdeal
import proofs.«146177_j50611894616843_1_alg».proof.Proof.Gen.ReferenceIdeal.Run
import proofs.«146177_j50611894616843_1_alg».proof.Proof.Gen.ReferenceIdeal.Read
import proofs.«146177_j50611894616843_1_alg».proof.Proof.Gen.Pre_finite_inputs
import proofs.«146177_j50611894616843_1_alg».proof.Proof.KernelArray
import proofs.«146177_j50611894616843_1_alg».proof.Proof.ReferenceArray
import Idealize.ShloMosaic.Adequacy
import Idealize.ShloMosaic.Init

noncomputable section

namespace Cert.Proof

open Idealize.ShloMosaic Idealize.ShloMosaic.TcCoe Idealize.SL.Sem

/-- The kernel as printed terminates and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in the idealized kernel. -/
theorem preserves : Cert.preserves_Kernel_KernelIdeal := trivial

/-- From memories that agree on the three arguments both programs end with the layer's output of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
